-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S512x2048 : Shape := ⟨2, ![512, 2048]⟩
abbrev S512 : Shape := ⟨1, ![512]⟩
abbrev S2048x512 : Shape := ⟨2, ![2048, 512]⟩
abbrev S2048 : Shape := ⟨1, ![2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S16384x2048 .f32) (main_arg1 : FVec F S512x2048 .f32) (main_arg2 : FVec F S512 .f32) (main_arg3 : FVec F S2048x512 .f32) (main_arg4 : FVec F S2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_v13 main_v16
-- ==== Kernel.lean ====
abbrev S16384x2048 : Shape := ⟨2, ![16384, 2048]⟩
abbrev S512x2048 : Shape := ⟨2, ![512, 2048]⟩
abbrev S512 : Shape := ⟨1, ![512]⟩
abbrev S2048x512 : Shape := ⟨2, ![2048, 512]⟩
abbrev S2048 : Shape := ⟨1, ![2048]⟩
abbrev S1x512 : Shape := ⟨2, ![1, 512]⟩
abbrev S1x2048 : Shape := ⟨2, ![1, 2048]⟩
abbrev S1024x2048 : Shape := ⟨2, ![1024, 2048]⟩
abbrev S512x512 : Shape := ⟨2, ![512, 512]⟩
abbrev S1024x512 : Shape := ⟨2, ![1024, 512]⟩
abbrev S1x1024 : Shape := ⟨2, ![1, 1024]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S512x2048, .f32⟩
  | .hbm, ⟨2, _⟩ => ⟨S512, .f32⟩
  | .hbm, ⟨3, _⟩ => ⟨S2048x512, .f32⟩
  | .hbm, ⟨4, _⟩ => ⟨S2048, .f32⟩
  | .hbm, ⟨5, _⟩ => ⟨S1x512, .f32⟩
  | .hbm, ⟨6, _⟩ => ⟨S1x2048, .f32⟩
  | .hbm, ⟨7, _⟩ => ⟨S512x2048, .bf16⟩
  | .hbm, ⟨8, _⟩ => ⟨S2048x512, .bf16⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S1x512, .f32⟩
  | .local _ .vmem, ⟨4, _⟩ => ⟨S2048x512, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S2048_S1x2048 : S2048.ShapeCasts S1x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x2048_S512x2048_0_0 : ∀ a, (![0, 0] : Fin 2 → Nat) a + S512x2048.size a ≤ S1024x2048.size a
  broadcasts_S1x512_S512x512 : S1x512.Broadcasts S512x512
  inb_S2048x512_S1024x512_0_0 : ∀ a, (![0, 0] : Fin 2 → Nat) a + S1024x512.size a ≤ S2048x512.size a
  h_S1024x512 : 0 < S1024x512.numel
  shapeCasts_S1024x512_S1024x512 : S1024x512.ShapeCasts S1024x512
  inb_S1x2048_S1x1024_0_0 : ∀ a, (![0, 0] : Fin 2 → Nat) a + S1x1024.size a ≤ S1x2048.size a
  h_S1x1024 : 0 < S1x1024.numel
  shapeCasts_S1x1024_S1x1024 : S1x1024.ShapeCasts S1x1024
  broadcasts_S1x1024_S512x1024 : S1x1024.Broadcasts S512x1024
  inb_S1024x2048_S512x1024_0_0 : ∀ a, (![0, 0] : Fin 2 → Nat) a + S512x1024.size a ≤ S1024x2048.size a
  h_S512x1024 : 0 < S512x1024.numel
  inb_S2048x512_S1024x512_1024_0 : ∀ a, (![1024, 0] : Fin 2 → Nat) a + S1024x512.size a ≤ S2048x512.size a
  inb_S1x2048_S1x1024_0_1024 : ∀ a, (![0, 1024] : Fin 2 → Nat) a + S1x1024.size a ≤ S1x2048.size a
  inb_S1024x2048_S512x1024_0_1024 : ∀ a, (![0, 1024] : Fin 2 → Nat) a + S512x1024.size a ≤ S1024x2048.size a
  inb_S1024x2048_S512x2048_512_0 : ∀ a, (![512, 0] : Fin 2 → Nat) a + S512x2048.size a ≤ S1024x2048.size a
  inb_S1024x2048_S512x1024_512_0 : ∀ a, (![512, 0] : Fin 2 → Nat) a + S512x1024.size a ≤ S1024x2048.size a
  inb_S1024x2048_S512x1024_512_1024 : ∀ a, (![512, 1024] : Fin 2 → Nat) a + S512x1024.size a ≤ S1024x2048.size a
  dot_S512x2048_S512x2048_S512x512_1_1_0_0_n_n_wf : DotDims.WF S512x2048 S512x2048 S512x512 [1] [1] [0] [0] [] []
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x512.size a
  hwx0_3 : ∀ i : grid0.Coords, EltTy.bits .bf16 = 32 ∨ (Rect.block (s := S2048x512) S2048x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x2048.size a
  hwx0_5 : ∀ i : grid0.Coords, EltTy.bits .f32 = 32 ∨ (Rect.block (s := S16384x2048) S1024x2048.size (cc0_transform_5 i) (hinb0_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S512x2048 : Shape := ⟨2, ![512, 2048]⟩
abbrev S512 : Shape := ⟨1, ![512]⟩
abbrev S2048x512 : Shape := ⟨2, ![2048, 512]⟩
abbrev S2048 : Shape := ⟨1, ![2048]⟩
abbrev S16384x512 : Shape := ⟨2, ![16384, 512]⟩
abbrev S1x512 : Shape := ⟨2, ![1, 512]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S512x2048, .f32⟩
  | .hbm, ⟨2, _⟩ => ⟨S512, .f32⟩
  | .hbm, ⟨3, _⟩ => ⟨S2048x512, .f32⟩
  | .hbm, ⟨4, _⟩ => ⟨S2048, .f32⟩
  | .hbm, ⟨5, _⟩ => ⟨S16384x512, .f32⟩
  | .hbm, ⟨6, _⟩ => ⟨S1x512, .f32⟩
  | .hbm, ⟨7, _⟩ => ⟨S16384x512, .f32⟩
  | .hbm, ⟨8, _⟩ => ⟨S16384x512, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  dot_S16384x2048_S512x2048_S16384x512_1_1_0_0_n_n_wf : DotDims.WF S16384x2048 S512x2048 S16384x512 [1] [1] [0] [0] [] []
  dot_S16384x512_S2048x512_S16384x2048_1_1_0_0_n_n_wf : DotDims.WF S16384x512 S2048x512 S16384x2048 [1] [1] [0] [0] [] []

variable [Facts₀]

def dot_S16384x2048_S512x2048_S16384x512_1_1_0_0_n_n : DotDims S16384x2048 S512x2048 S16384x512 where
  lhsContracting := [1]
  rhsContracting := [1]
  lhsNonContracting := [0]
  rhsNonContracting := [0]
  lhsBatch := []
  rhsBatch := []
  wf := dot_S16384x2048_S512x2048_S16384x512_1_1_0_0_n_n_wf
def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.Payload.lean ====
/-
  The kernel body's arithmetic at an index, on the extended reals.

  The body works on a 512-row chunk of the point's 1024 input rows. Its first product takes the chunk `x : [512, 2048]`
  against the first weight matrix `w₁ : [512, 2048]` row by row and adds the bias row `b₁ : [1, 512]`:
  `h (p, k) = ∑ l, x (p, l) · w₁ (k, l) + b₁ (0, k)`. Its second product takes `h` against a 1024-row half of the second
  weight matrix `w₂` and adds the matching half of the bias row `b₂`:
  `o (p, q) = ∑ k, h (p, k) · w₂ (q, k) + b₂ (0, q)`. A change of float format is the identity on the extended reals,
  and a product into the zero accumulator is the plain sum.
-/
import proofs.«166565_j59665685676275_2_alg».proof.Proof.Gen.KernelIdeal.Skeleton
import proofs.«166565_j59665685676275_2_alg».proof.Proof.LibDotNT
import Idealize.ShloMosaic.Lib.ValueLayout

noncomputable section

namespace Cert.KernelIdeal.Payload

open Cert.KernelIdeal Cert.KernelIdeal.Gen Idealize.ShloMosaic Idealize.ShloMosaic.ValueIdx Cert.LibDotNT

/-- The first product's dimension numbers: `[512, 2048] × [512, 2048]`, both contracted along their rows. -/
theorem dot1_eq : dot_S512x2048_S512x2048_S512x512_1_1_0_0_n_n = DotDims.transposedRhs 512 2048 512 := rfl

/-- The second product's: `[512, 512] × [1024, 512]`. -/
theorem dot2_eq : dot_S512x512_S1024x512_S512x1024_1_1_0_0_n_n = DotDims.transposedRhs 512 512 1024 := rfl

/-- The hidden chunk at (p, k): row p of the input chunk against row k of the first weights, plus the k-th bias. -/
theorem hidden_apply (v0 : Vec Ideal S512x2048 .bf16) (v2 : Vec Ideal S1x512 .f32) (v4 : Vec Ideal S512x2048 .f32)
    (p : Fin 512) (k : Fin 512) :
    k0_pay5 v0 v2 v4 (ix2 p k) = (∑ l : Fin 2048, v4 (ix2 p l) * v0 (ix2 k l)) + v2 (ix2 (0 : Fin 1) k) := by
  unfold k0_pay5 k0_pay3 k0_pay4
  dsimp only
  rw [shapeCast_self, shapeCast_self, dot1_eq]
  refine congrArg₂ (fun a b : EReal => a + b) ?_ ?_
  · exact matmul_tr (M := 512) (K := 2048) (N := 512) _ _ (ix2 p k)
  · exact broadcastTo_1b_ab_apply v2 _ p k

/-- The second chunk of the point's rows goes through the same first product. -/
theorem hidden2_eq (v0 : Vec Ideal S512x2048 .bf16) (v2 : Vec Ideal S1x512 .f32) (v26 : Vec Ideal S512x2048 .f32) :
    k0_pay8 v0 v2 v26 = k0_pay5 v0 v2 v26 := rfl

/-- An output piece at (p, q): row p of the hidden chunk against row q of the weight half, plus the q-th bias of the half. -/
theorem out_apply (v31 : FVec Ideal S512x512 .bf16) (v32 : Vec Ideal S1024x512 .bf16) (v34 : Vec Ideal S1x1024 .f32)
    (p : Fin 512) (q : Fin 1024) :
    k0_pay1 v31 v32 v34 (ix2 p q) = (∑ k : Fin 512, v31 (ix2 p k) * v32 (ix2 q k)) + v34 (ix2 (0 : Fin 1) q) := by
  unfold k0_pay1
  rw [shapeCast_self, shapeCast_self, dot2_eq]
  refine congrArg₂ (fun a b : EReal => a + b) ?_ ?_
  · exact matmul_tr (M := 512) (K := 512) (N := 1024) _ _ (ix2 p q)
  · exact broadcastTo_1b_ab_apply v34 _ p q

/-- The four output pieces are one function of the hidden chunk, a weight half and a bias half. -/
theorem pay2_eq (v31 : FVec Ideal S512x512 .bf16) (v40 : Vec Ideal S1024x512 .bf16) (v42 : Vec Ideal S1x1024 .f32) :
    k0_pay2 v31 v40 v42 = k0_pay1 v31 v40 v42 := rfl

theorem pay6_eq (v0 : Vec Ideal S512x2048 .bf16) (v2 : Vec Ideal S1x512 .f32) (v4 : Vec Ideal S512x2048 .f32)
    (v10 : Vec Ideal S1024x512 .bf16) (v12 : Vec Ideal S1x1024 .f32) :
    k0_pay6 v0 v2 v4 v10 v12 = k0_pay1 (k0_pay5 v0 v2 v4) v10 v12 := rfl

theorem pay7_eq (v0 : Vec Ideal S512x2048 .bf16) (v2 : Vec Ideal S1x512 .f32) (v4 : Vec Ideal S512x2048 .f32)
    (v18 : Vec Ideal S1024x512 .bf16) (v20 : Vec Ideal S1x1024 .f32) :
    k0_pay7 v0 v2 v4 v18 v20 = k0_pay1 (k0_pay5 v0 v2 v4) v18 v20 := rfl

/-- Both layers at (p, q), written out over what the body loaded. -/
theorem piece_apply (v0 : Vec Ideal S512x2048 .bf16) (v2 : Vec Ideal S1x512 .f32) (v4 : Vec Ideal S512x2048 .f32)
    (w : Vec Ideal S1024x512 .bf16) (b : Vec Ideal S1x1024 .f32) (p : Fin 512) (q : Fin 1024) :
    k0_pay1 (k0_pay5 v0 v2 v4) w b (ix2 p q)
      = (∑ k : Fin 512, ((∑ l : Fin 2048, v4 (ix2 p l) * v0 (ix2 k l)) + v2 (ix2 (0 : Fin 1) k)) * w (ix2 q k))
        + b (ix2 (0 : Fin 1) q) := by
  rw [out_apply]
  exact congrArg (fun a : EReal => a + b (ix2 (0 : Fin 1) q))
    (Finset.sum_congr rfl fun k _ => congrArg (fun a : EReal => a * w (ix2 q k)) (hidden_apply v0 v2 v4 p k))

end Cert.KernelIdeal.Payload

end
-- ==== Proof.Block.lean ====
/-
  What the body leaves in the output block, as one function of the input blocks.

  The body writes the point's `[1024, 2048]` output block in four stores: the block's rows in two halves of 512, its
  columns in two halves of 1024. The store at row offset ro and column offset co holds, at (p, q), both layers applied to
  row ro + p of the input block, against row co + q of the second weights, with bias entry co + q. So every store is the
  tile of ONE function of the block index — entry (r, c) reads row r of the input block, all of the first weights and
  first bias, row c of the second weights and entry c of the second bias — and since the four stores tile the block, the
  block ends holding that function.
-/
import proofs.«166565_j59665685676275_2_alg».proof.Proof.Gen.KernelIdeal.Frame
import proofs.«166565_j59665685676275_2_alg».proof.Proof.Payload

noncomputable section

namespace Cert.KernelIdeal.Block

open Cert.KernelIdeal Cert.KernelIdeal.Gen Idealize.ShloMosaic Idealize.ShloMosaic.ValueIdx Cert.KernelIdeal.Payload

/-- Both layers on the point's blocks: entry (r, c) of the output block. -/
def blockG (x0 : Vec Ideal S1024x2048 .f32) (x1 : Vec Ideal S512x2048 .bf16) (x2 : Vec Ideal S1x512 .f32)
    (x3 : Vec Ideal S2048x512 .bf16) (x4 : Vec Ideal S1x2048 .f32) : Vec Ideal S1024x2048 .f32 :=
  fun y => (∑ k : Fin 512, ((∑ l : Fin 2048, x0 (ix2 (y 0) l) * x1 (ix2 k l)) + x2 (ix2 (0 : Fin 1) k)) * x3 (ix2 (y 1) k))
    + x4 (ix2 (0 : Fin 1) (y 1))

/-- The store at offsets (ro, co): what the body computed for it from its loads — the input rows from ro, the weight
    rows and bias entries from co — is the tile of `blockG` its rectangle names. -/
theorem piece_eq (x0 : Vec Ideal S1024x2048 .f32) (x1 : Vec Ideal S512x2048 .bf16) (x2 : Vec Ideal S1x512 .f32)
    (x3 : Vec Ideal S2048x512 .bf16) (x4 : Vec Ideal S1x2048 .f32) (ro co : ℕ)
    (hx : ∀ a, (![ro, 0] : Fin 2 → ℕ) a + S512x2048.size a ≤ S1024x2048.size a)
    (hw : ∀ a, (![co, 0] : Fin 2 → ℕ) a + S1024x512.size a ≤ S2048x512.size a)
    (hb : ∀ a, (![0, co] : Fin 2 → ℕ) a + S1x1024.size a ≤ S1x2048.size a)
    (ho : ∀ a, (![ro, co] : Fin 2 → ℕ) a + S512x1024.size a ≤ S1024x2048.size a)
    (p : Fin 512) (q : Fin 1024) :
    k0_pay1 (k0_pay5 (View.ld x1 r0_0) (View.ld x2 r0_1) (View.ld x0 (Rect.unit (s := S1024x2048) ![ro, 0] S512x2048.size hx)))
        (View.ld x3 (Rect.unit (s := S2048x512) ![co, 0] S1024x512.size hw))
        (View.ld x4 (Rect.unit (s := S1x2048) ![0, co] S1x1024.size hb)) (ix2 p q)
      = blockG x0 x1 x2 x3 x4 ((Rect.unit (s := S1024x2048) ![ro, co] S512x1024.size ho).emb (ix2 p q)) := by
  rw [piece_apply]
  unfold blockG
  have e4 : ∀ l : Fin 2048, View.ld x0 (Rect.unit (s := S1024x2048) ![ro, 0] S512x2048.size hx) (ix2 p l)
      = x0 (ix2 ((Rect.unit (s := S1024x2048) ![ro, co] S512x1024.size ho).emb (ix2 p q) 0) l) := fun l =>
    congrArg x0 (funext fun c => Fin.ext (by
      match c with
      | ⟨0, _⟩ => rfl
      | ⟨1, _⟩ => show 0 + 1 * l.val = l.val; omega))
  have e0 : ∀ (k : Fin 512) (l : Fin 2048), View.ld x1 r0_0 (ix2 k l) = x1 (ix2 k l) := fun k l =>
    congrArg x1 (funext fun c => Fin.ext (by
      match c with
      | ⟨0, _⟩ => show 0 + 1 * k.val = k.val; omega
      | ⟨1, _⟩ => show 0 + 1 * l.val = l.val; omega))
  have e2 : ∀ k : Fin 512, View.ld x2 r0_1 (ix2 (0 : Fin 1) k) = x2 (ix2 (0 : Fin 1) k) := fun k =>
    congrArg x2 (funext fun c => Fin.ext (by
      match c with
      | ⟨0, _⟩ => rfl
      | ⟨1, _⟩ => show 0 + 1 * k.val = k.val; omega))
  have ew : ∀ k : Fin 512, View.ld x3 (Rect.unit (s := S2048x512) ![co, 0] S1024x512.size hw) (ix2 q k)
      = x3 (ix2 ((Rect.unit (s := S1024x2048) ![ro, co] S512x1024.size ho).emb (ix2 p q) 1) k) := fun k =>
    congrArg x3 (funext fun c => Fin.ext (by
      match c with
      | ⟨0, _⟩ => rfl
      | ⟨1, _⟩ => show 0 + 1 * k.val = k.val; omega))
  have eb : View.ld x4 (Rect.unit (s := S1x2048) ![0, co] S1x1024.size hb) (ix2 (0 : Fin 1) q)
      = x4 (ix2 (0 : Fin 1) ((Rect.unit (s := S1024x2048) ![ro, co] S512x1024.size ho).emb (ix2 p q) 1)) :=
    congrArg x4 (funext fun c => Fin.ext (by
      match c with
      | ⟨0, _⟩ => rfl
      | ⟨1, _⟩ => rfl))
  rw [eb]
  refine congrArg (fun a : EReal => a + _) (Finset.sum_congr rfl fun k _ => ?_)
  rw [ew k, e2 k]
  exact congrArg (fun a : EReal => (a + _) * _) (Finset.sum_congr rfl fun l _ => by rw [e4 l, e0 k l])

/-- The block after the body is both layers of the point's blocks: the four stores tile it, each with its tile. -/
theorem out_eq (x0 : Vec Ideal S1024x2048 .f32) (x1 : Vec Ideal S512x2048 .bf16) (x2 : Vec Ideal S1x512 .f32)
    (x3 : Vec Ideal S2048x512 .bf16) (x4 : Vec Ideal S1x2048 .f32) :
    out0_5 x0 x1 x2 x3 x4 = blockG x0 x1 x2 x3 x4 := by
  funext y
  unfold out0_5
  refine View.canon_apply_of_pieces (blockG x0 x1 x2 x3 x4) _ ?_ y (cover0_5 _ _ _ _ y)
  intro pc hpc z
  rcases List.mem_cons.mp hpc with rfl | hpc
  · obtain ⟨a, b, rfl⟩ : ∃ (a : Fin 512) (b : Fin 1024), z = ix2 a b := ⟨z 0, z 1, eq_ix2 z⟩
    exact piece_eq x0 x1 x2 x3 x4 512 1024 Facts₀.inb_S1024x2048_S512x2048_512_0 Facts₀.inb_S2048x512_S1024x512_1024_0
      Facts₀.inb_S1x2048_S1x1024_0_1024 Facts₀.inb_S1024x2048_S512x1024_512_1024 a b
  rcases List.mem_cons.mp hpc with rfl | hpc
  · obtain ⟨a, b, rfl⟩ : ∃ (a : Fin 512) (b : Fin 1024), z = ix2 a b := ⟨z 0, z 1, eq_ix2 z⟩
    exact piece_eq x0 x1 x2 x3 x4 512 0 Facts₀.inb_S1024x2048_S512x2048_512_0 Facts₀.inb_S2048x512_S1024x512_0_0
      Facts₀.inb_S1x2048_S1x1024_0_0 Facts₀.inb_S1024x2048_S512x1024_512_0 a b
  rcases List.mem_cons.mp hpc with rfl | hpc
  · obtain ⟨a, b, rfl⟩ : ∃ (a : Fin 512) (b : Fin 1024), z = ix2 a b := ⟨z 0, z 1, eq_ix2 z⟩
    exact piece_eq x0 x1 x2 x3 x4 0 1024 Facts₀.inb_S1024x2048_S512x2048_0_0 Facts₀.inb_S2048x512_S1024x512_1024_0
      Facts₀.inb_S1x2048_S1x1024_0_1024 Facts₀.inb_S1024x2048_S512x1024_0_1024 a b
  · obtain rfl := List.mem_singleton.mp hpc
    obtain ⟨a, b, rfl⟩ : ∃ (a : Fin 512) (b : Fin 1024), z = ix2 a b := ⟨z 0, z 1, eq_ix2 z⟩
    exact piece_eq x0 x1 x2 x3 x4 0 0 Facts₀.inb_S1024x2048_S512x2048_0_0 Facts₀.inb_S2048x512_S1024x512_0_0
      Facts₀.inb_S1x2048_S1x1024_0_0 Facts₀.inb_S1024x2048_S512x1024_0_0 a b

end Cert.KernelIdeal.Block

end
-- ==== Proof.BlockLayers.lean ====
/-
  The output block against the whole result, entry by entry.

  Entry (r, c) of a point's output block reads row r of the point's input block, all of the first weights and first
  bias, row c of the second weights and entry c of the second bias. Entry (R, C) of two layers of whole arrays reads the
  same things of the arrays at row R and column C. So where the blocks agree with the arrays on those rows and entries
  the two values are equal; nothing else about where the blocks sit is needed.
-/
import proofs.«166565_j59665685676275_2_alg».proof.Proof.Block

noncomputable section

namespace Cert.KernelIdeal.Block

open Cert.KernelIdeal Idealize.ShloMosaic Idealize.ShloMosaic.ValueIdx Cert.LibDotNT

/-- Blocks that agree with the arrays on what entry `y` reads give, at `y`, the arrays' two layers at `i`. -/
theorem blockG_eq_twoLayers (X0 : (⟨2, ![16384, 2048]⟩ : Shape).Idx → EReal) (X1 : (⟨2, ![512, 2048]⟩ : Shape).Idx → EReal)
    (X2 : (⟨1, ![512]⟩ : Shape).Idx → EReal) (X3 : (⟨2, ![2048, 512]⟩ : Shape).Idx → EReal)
    (X4 : (⟨1, ![2048]⟩ : Shape).Idx → EReal)
    (x0 : Vec Ideal S1024x2048 .f32) (x1 : Vec Ideal S512x2048 .bf16) (x2 : Vec Ideal S1x512 .f32)
    (x3 : Vec Ideal S2048x512 .bf16) (x4 : Vec Ideal S1x2048 .f32)
    (y : S1024x2048.Idx) (i : (⟨2, ![16384, 2048]⟩ : Shape).Idx)
    (h0 : ∀ l : Fin 2048, x0 (ix2 (y 0) l) = X0 (ix2 (i 0) l))
    (h1 : ∀ (k : Fin 512) (l : Fin 2048), x1 (ix2 k l) = X1 (ix2 k l))
    (h2 : ∀ k : Fin 512, x2 (ix2 (0 : Fin 1) k) = X2 (ix1 k))
    (h3 : ∀ k : Fin 512, x3 (ix2 (y 1) k) = X3 (ix2 (i 1) k))
    (h4 : x4 (ix2 (0 : Fin 1) (y 1)) = X4 (ix1 (i 1))) :
    blockG x0 x1 x2 x3 x4 y = twoLayers (B := 16384) (M := 2048) (K := 512) X0 X1 X2 X3 X4 i := by
  show (∑ k : Fin 512, ((∑ l : Fin 2048, x0 (ix2 (y 0) l) * x1 (ix2 k l)) + x2 (ix2 (0 : Fin 1) k)) * x3 (ix2 (y 1) k))
        + x4 (ix2 (0 : Fin 1) (y 1))
      = (∑ k : Fin 512, ((∑ l : Fin 2048, X0 (ix2 (i 0) l) * X1 (ix2 k l)) + X2 (ix1 k)) * X3 (ix2 (i 1) k))
        + X4 (ix1 (i 1))
  rw [h4]
  refine congrArg (fun a : EReal => a + X4 (ix1 (i 1))) (Finset.sum_congr rfl fun k _ => ?_)
  rw [h3 k, h2 k]
  exact congrArg (fun a : EReal => (a + X2 (ix1 k)) * X3 (ix2 (i 1) k))
    (Finset.sum_congr rfl fun l _ => by rw [h0 l, h1 k l])

end Cert.KernelIdeal.Block

end
-- ==== Proof.KernelValue.lean ====
/-
  The kernel's result array after the run is two layers of the argument arrays.

  The call has 16 points; point t stages rows 1024·t … 1024·t + 1023 of the inputs (all 2048 columns) and writes back the
  same rows of the result, while the two weight matrices and the two bias rows are staged whole at every point. Before
  the call the host casts the weights to another float format — the identity on the extended reals — and reshapes each
  bias `[d]` to a row `[1, d]`, whose entry (0, k) is the bias's k-th. So what point t writes back is rows
  1024·t … of `(x · w₁ᵀ + b₁) · w₂ᵀ + b₂`; the 16 row bands cover the result (row R lies in band R / 1024), so the array
  ends as that function.
-/
import proofs.«166565_j59665685676275_2_alg».proof.Proof.Gen.KernelIdeal.Value
import proofs.«166565_j59665685676275_2_alg».proof.Proof.BlockLayers
import Idealize.ShloMosaic.Lib.StableHlo.Run
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.LibDotNT Cert.KernelIdeal.Block

variable (m : (ℓ : Loc nD τ sig) → Buf (Elt Ideal) ℓ) (ρ : Dev nD → PrngReg)

/-! ## The arrays the call finds -/

/-- The first weights as the call finds them: the argument in another float format, which on the extended reals is
    the argument. -/
theorem V_w1 (c : Dev nD) : (V m c main_v2 : S512x2048.Idx → EReal)
    = (m ((c : Thread nD τ).loc main_arg1) : S512x2048.Idx → EReal) := by
  dsimp only [Gen.V, Gen.hostOps0]; after_results; rfl

/-- The second weights likewise. -/
theorem V_w2 (c : Dev nD) : (V m c main_v3 : S2048x512.Idx → EReal)
    = (m ((c : Thread nD τ).loc main_arg3) : S2048x512.Idx → EReal) := by
  dsimp only [Gen.V, Gen.hostOps0]; after_results; rfl

/-- The first bias as the call finds it: the argument as one row. -/
theorem V_b1 (c : Dev nD) : (V m c main_v0 : S1x512.Idx → EReal)
    = shapeCast S1x512 (m ((c : Thread nD τ).loc main_arg2)) shapeCasts_S512_S1x512 := by
  dsimp only [Gen.V, Gen.hostOps0]; after_results; rfl

/-- The second bias likewise. -/
theorem V_b2 (c : Dev nD) : (V m c main_v1 : S1x2048.Idx → EReal)
    = shapeCast S1x2048 (m ((c : Thread nD τ).loc main_arg4)) shapeCasts_S2048_S1x2048 := by
  dsimp only [Gen.V, Gen.hostOps0]; after_results; rfl

/-! ## The result as one function of the arguments -/

/-- `(x · w₁ᵀ + b₁) · w₂ᵀ + b₂` of the argument arrays on core `c`. -/
def result (c : Dev nD) : Buf (Elt Ideal) ((c : Thread nD τ).loc main_v4) :=
  twoLayers (B := 16384) (M := 2048) (K := 512) (m ((c : Thread nD τ).loc main_arg0)) (m ((c : Thread nD τ).loc main_arg1))
    (m ((c : Thread nD τ).loc main_arg2)) (m ((c : Thread nD τ).loc main_arg3)) (m ((c : Thread nD τ).loc main_arg4))

/-- Where the blocks sit, decided over the 16 points: the input block moves with the output block down the rows, both
    span all columns, and every other window's block is its whole array. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every one of the 16 row bands is some point's. -/
theorem idx_onto : ∀ q0 : Fin 16, ∃ t : Fin cfg0.N, win0_5.index t = ![q0.val, 0] :=
  (by decide +kernel : ∀ q0 : Fin 16, ∃ t : Fin grid0.N, win0_5.index t = ![q0.val, 0])

/-- What point `t` writes back is its row band of `result`. -/
theorem flushed_eq (c : Dev nD) (t : Fin cfg0.N) :
    (dats m 0 c).flushed 5 t = ((cfg0.win 5).blk t).view.read (Elt Ideal) (result m c) := by
  rw [Value.flushed5, out_eq (iblk m c 0 t) (iblk m c 1 t) (iblk m c 2 t) (iblk m c 3 t) (iblk m c 4 t)]
  obtain ⟨e00, e01, e10, e11, e20, e21, e30, e31, e40, e41, e51⟩ := idx_facts t
  funext y
  show blockG (iblk m c 0 t) (iblk m c 1 t) (iblk m c 2 t) (iblk m c 3 t) (iblk m c 4 t) y
    = result m c (((cfg0.win 5).blk t).view.emb y)
  refine blockG_eq_twoLayers (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) y (((cfg0.win 5).blk t).view.emb y)
    ?_ ?_ ?_ ?_ ?_
  · intro l
    show V m c main_arg0 (((cfg0.win 0).blk t).view.emb (ix2 (y 0) l))
      = m ((c : Thread nD τ).loc main_arg0) (ix2 ((((cfg0.win 5).blk t).view.emb y) 0) l)
    rw [V_main_arg0]
    refine congrArg _ (funext fun a => Fin.ext ?_)
    match a with
    | ⟨0, _⟩ =>
      show win0_0.index t (0 : Fin 2) * 1024 + 1 * (y 0).val = win0_5.index t (0 : Fin 2) * 1024 + 1 * (y 0).val
      omega
    | ⟨1, _⟩ =>
      show win0_0.index t (1 : Fin 2) * 2048 + 1 * l.val = l.val
      omega
  · intro k l
    show V m c main_v2 (((cfg0.win 1).blk t).view.emb (ix2 k l)) = m ((c : Thread nD τ).loc main_arg1) (ix2 k l)
    rw [V_w1]
    show m ((c : Thread nD τ).loc main_arg1) (((cfg0.win 1).blk t).view.emb (ix2 k l)) = _
    refine congrArg _ (funext fun a => Fin.ext ?_)
    match a with
    | ⟨0, _⟩ =>
      show win0_1.index t (0 : Fin 2) * 512 + 1 * k.val = k.val
      omega
    | ⟨1, _⟩ =>
      show win0_1.index t (1 : Fin 2) * 2048 + 1 * l.val = l.val
      omega
  · intro k
    show V m c main_v0 (((cfg0.win 2).blk t).view.emb (ix2 (0 : Fin 1) k)) = m ((c : Thread nD τ).loc main_arg2) (ix1 k)
    rw [V_b1]
    have e : ((cfg0.win 2).blk t).view.emb (ix2 (0 : Fin 1) k) = ix2 (0 : Fin 1) k := funext fun a => Fin.ext (by
      match a with
      | ⟨0, _⟩ =>
        show win0_2.index t (0 : Fin 2) * 1 + 1 * 0 = 0
        omega
      | ⟨1, _⟩ =>
        show win0_2.index t (1 : Fin 2) * 512 + 1 * k.val = k.val
        omega)
    rw [e]
    exact shapeCast_a_1a_apply (m ((c : Thread nD τ).loc main_arg2)) shapeCasts_S512_S1x512 0 k
  · intro k
    show V m c main_v3 (((cfg0.win 3).blk t).view.emb (ix2 (y 1) k))
      = m ((c : Thread nD τ).loc main_arg3) (ix2 ((((cfg0.win 5).blk t).view.emb y) 1) k)
    rw [V_w2]
    show m ((c : Thread nD τ).loc main_arg3) (((cfg0.win 3).blk t).view.emb (ix2 (y 1) k)) = _
    refine congrArg _ (funext fun a => Fin.ext ?_)
    match a with
    | ⟨0, _⟩ =>
      show win0_3.index t (0 : Fin 2) * 2048 + 1 * (y 1).val = win0_5.index t (1 : Fin 2) * 2048 + 1 * (y 1).val
      omega
    | ⟨1, _⟩ =>
      show win0_3.index t (1 : Fin 2) * 512 + 1 * k.val = k.val
      omega
  · show V m c main_v1 (((cfg0.win 4).blk t).view.emb (ix2 (0 : Fin 1) (y 1)))
      = m ((c : Thread nD τ).loc main_arg4) (ix1 ((((cfg0.win 5).blk t).view.emb y) 1))
    rw [V_b2]
    have e : ((cfg0.win 4).blk t).view.emb (ix2 (0 : Fin 1) (y 1))
        = ix2 (0 : Fin 1) ((((cfg0.win 5).blk t).view.emb y) 1) := funext fun a => Fin.ext (by
      match a with
      | ⟨0, _⟩ =>
        show win0_4.index t (0 : Fin 2) * 1 + 1 * 0 = 0
        omega
      | ⟨1, _⟩ =>
        show win0_4.index t (1 : Fin 2) * 2048 + 1 * (y 1).val = win0_5.index t (1 : Fin 2) * 2048 + 1 * (y 1).val
        omega)
    rw [e]
    exact shapeCast_a_1a_apply (m ((c : Thread nD τ).loc main_arg4)) shapeCasts_S2048_S1x2048 0 _

/-! ## The row bands cover the result -/

/-- An index of the result is in point `t`'s band iff each coordinate is in the band's range on its axis. -/
theorem mem_blk (t : Fin cfg0.N) (i : S16384x2048.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v4).slice (win0_5.rect t)).set ↔ _
  rw [View.set_slice_whole, Rect.mem_set_unit]
  exact Iff.rfl

/-- Row R lies in band R / 1024. -/
theorem cover (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 2048 ≤ (i 1).val ∧ (i 1).val < win0_5.index t (1 : Fin 2) * 2048 + 2048
    omega

/-- The result array after the run. -/
theorem final (c : Dev nD) : (dats m 0 c).arrAt 5 cfg0.N = result m c :=
  (dats m 0 c).arrAt_eq_of_cover 5 (result m c) (fun t _ => flushed_eq m c t) cover

/-- The run: the result array ends as `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference's result is two layers of its arguments, index by index.

  The reference multiplies the inputs by the first weights row against row, adds the first bias to every row, multiplies
  the result by the second weights row against row and adds the second bias to every row. Read at entry (r, j): the
  second product's contraction index k runs over the 512 hidden columns; the hidden entry (r, k) is the first product's
  sum over the 2048 input columns plus the k-th first bias; the second bias contributes its j-th entry.
-/
import proofs.«166565_j59665685676275_2_alg».proof.Proof.Gen.ReferenceIdeal.Read
import proofs.«166565_j59665685676275_2_alg».proof.Proof.LibDotNT

noncomputable section

namespace Cert.ReferenceIdeal.RefValue

open Cert.ReferenceIdeal Cert.ReferenceIdeal.Gen Cert.ReferenceIdeal.Read Idealize.ShloMosaic Idealize.ShloMosaic.ValueIdx
open Cert.LibDotNT

/-- The last stage of the reference, as a function of the five argument arrays, is `(x · w₁ᵀ + b₁) · w₂ᵀ + b₂`. -/
theorem ref_eq (x0 : (⟨S16384x2048, .f32⟩ : BufTy).Contents (Elt Ideal)) (x1 : (⟨S512x2048, .f32⟩ : BufTy).Contents (Elt Ideal))
    (x2 : (⟨S512, .f32⟩ : BufTy).Contents (Elt Ideal)) (x3 : (⟨S2048x512, .f32⟩ : BufTy).Contents (Elt Ideal))
    (x4 : (⟨S2048, .f32⟩ : BufTy).Contents (Elt Ideal)) :
    val_main_v7 (F := Ideal) x0 x1 x2 x3 x4 = twoLayers (B := 16384) (M := 2048) (K := 512) x0 x1 x2 x3 x4 := by
  funext i
  obtain ⟨r, j, rfl⟩ : ∃ (r : Fin 16384) (j : Fin 2048), i = ix2 r j := ⟨i 0, i 1, eq_ix2 i⟩
  rw [twoLayers_ix2, val_main_v7_apply, val_main_v4_apply, val_main_v6_apply, val_main_v5_apply]
  show (_ + _ : EReal) = _
  refine congrArg₂ (fun a b : EReal => a + b) (Finset.sum_congr rfl fun k _ => ?_) ?_
  · have hl : lidx_main_v4 (ix2 r j) k = ix2 r k := funext fun a => Fin.ext (by
      match a with
      | ⟨0, _⟩ => rfl
      | ⟨1, _⟩ => rfl)
    have hr : ridx_main_v4 (ix2 r j) k = ix2 j k := funext fun a => Fin.ext (by
      match a with
      | ⟨0, _⟩ => rfl
      | ⟨1, _⟩ => rfl)
    rw [hl, hr, val_main_v3_apply, val_main_v0_apply, val_main_v2_apply, val_main_v1_apply]
    show ((_ + _ : EReal) * _) = _
    refine congrArg (fun a : EReal => a * x3 (ix2 j k))
      (congrArg₂ (fun a b : EReal => a + b) (Finset.sum_congr rfl fun l _ => ?_) ?_)
    · have hl0 : lidx_main_v0 (ix2 r k) l = ix2 r l := funext fun a => Fin.ext (by
        match a with
        | ⟨0, _⟩ => rfl
        | ⟨1, _⟩ => rfl)
      have hr0 : ridx_main_v0 (ix2 r k) l = ix2 k l := funext fun a => Fin.ext (by
        match a with
        | ⟨0, _⟩ => rfl
        | ⟨1, _⟩ => rfl)
      rw [hl0, hr0]
    · exact congrArg x2 (funext fun a => Fin.ext (by
        match a with
        | ⟨0, _⟩ => rfl))
  · exact congrArg x4 (funext fun a => Fin.ext (by
      match a with
      | ⟨0, _⟩ => rfl))

end Cert.ReferenceIdeal.RefValue

end
-- ==== Proof.lean ====
/-
  Two layers with nothing between them, `(x · w₁ᵀ + b₁) · w₂ᵀ + b₂`, computed by a tiled kernel and by two plain
  matrix products.

  The kernel walks the 16384 input rows in 16 bands of 1024; within a band it takes the rows in two chunks of 512, forms
  the 512 hidden columns of a chunk, and writes the chunk's 2048 output columns in two halves of 1024. The reference forms
  the whole hidden matrix and the whole output. On the extended reals a change of float format is the identity and a
  product into a zero accumulator is a plain finite sum, so both compute, at entry (r, j),
  `∑ k, (∑ l, x (r, l) · w₁ (k, l) + b₁ k) · w₂ (j, k) + b₂ j` — the same sums over the same index sets, written in the
  same order; no sum is regrouped and no factor is moved across a sum, so nothing asks an entry to be finite and the
  precondition is never opened.

  The kernel's side: each of its four stores holds its tile of one function of the block (Block), that function is the
  whole result restricted to the band's rows (BlockLayers, KernelValue), and the bands cover the result (KernelValue).
  The reference's side: its last stage read index by index (RefValue). The idealized kernel is the kernel's own text
  read on the extended reals, with no rewrite to account for.
-/
import proofs.«166565_j59665685676275_2_alg».proof.Defs
import proofs.«166565_j59665685676275_2_alg».proof.Proof.Gen.Kernel
import proofs.«166565_j59665685676275_2_alg».proof.Proof.Gen.Kernel.Skeleton
import proofs.«166565_j59665685676275_2_alg».proof.Proof.Gen.Kernel.Launch
import proofs.«166565_j59665685676275_2_alg».proof.Proof.Gen.Kernel.Points
import proofs.«166565_j59665685676275_2_alg».proof.Proof.Gen.Kernel.Frame
import proofs.«166565_j59665685676275_2_alg».proof.Proof.Gen.KernelIdeal
import proofs.«166565_j59665685676275_2_alg».proof.Proof.Gen.KernelIdeal.Skeleton
import proofs.«166565_j59665685676275_2_alg».proof.Proof.Gen.KernelIdeal.Launch
import proofs.«166565_j59665685676275_2_alg».proof.Proof.Gen.KernelIdeal.Points
import proofs.«166565_j59665685676275_2_alg».proof.Proof.Gen.KernelIdeal.Frame
import proofs.«166565_j59665685676275_2_alg».proof.Proof.Gen.ReferenceIdeal
import proofs.«166565_j59665685676275_2_alg».proof.Proof.Gen.KernelIdeal.Value
import proofs.«166565_j59665685676275_2_alg».proof.Proof.Gen.ReferenceIdeal.Run
import proofs.«166565_j59665685676275_2_alg».proof.Proof.Gen.ReferenceIdeal.Read
import proofs.«166565_j59665685676275_2_alg».proof.Proof.Gen.Pre_finite_inputs
import proofs.«166565_j59665685676275_2_alg».proof.Proof.KernelValue
import proofs.«166565_j59665685676275_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the five arguments, end with the result array at
    `(x · w₁ᵀ + b₁) · w₂ᵀ + b₂` of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq,
    (hagree c).1, (hagree c).2.1, (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
